-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  main_v3
-- ==== Kernel.lean ====
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192x1, .f32⟩
  | .hbm, ⟨3, _⟩ => ⟨S1x8192, .f32⟩
  | .hbm, ⟨4, _⟩ => ⟨S8192x1, .i32⟩
  | .hbm, ⟨5, _⟩ => ⟨S1x8192, .i32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v71 : BitVec 1 := Scalar.cmpi .eq arg0 c7_i32
  let arg1 : BitVec 32 := BitVec.ofNat 32 (i 1).val
  let c7_i32_24 : BitVec 32 := 7#32
  let v72 : BitVec 1 := Scalar.cmpi .eq arg1 c7_i32_24
  let v73 : BitVec 1 := Scalar.andi v71 v72
  let v74 : BitVec 32 := Scalar.extui v73
  let c0_i32_25 : BitVec 32 := 0#32
  let v75 : BitVec 1 := Scalar.cmpi .ne v74 c0_i32_25
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v0) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .i32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x1, .i32⟩
  | .hbm, ⟨8, _⟩ => ⟨S1x8192, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8192x8192, .i1⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .i1⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_cst_0 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.KernelCases.lean ====
/-
  What one grid point of the kernel leaves in its two one-word accumulators, and in its two one-word outputs.

  The grid is 8 × 8 points; point (a, b) sees rows 1024·a … 1024·a + 1023 of the scores and groups as a column and
  rows 1024·b … as a row, and adds to a running sum the sum over its 1024 × 1024 tile of the masked pair losses,
  and to a running count the sum of the mask.  At the first point both accumulators are first set to zero; at the
  last point they are copied, after the update, to the two outputs.  So at every point the accumulators end at
  `lossStep` / `cntStep` of what they held before (zero at the first point), and at the last point so do the outputs.
-/
import proofs.«111976_j90950227460178_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases
open Cert.KernelIdeal Cert.KernelIdeal.Gen
variable {F : FTy → Type} [FloatOps F]

theorem hz : (![0, 0] : Fin 2 → Nat) = fun _ => 0 := funext fun a => by fin_cases a <;> rfl

/-- One grid point's update of the running sum of masked pair losses: the contents `acc` plus the sum, over the
    point's 1024 × 1024 tile of pairs, of the masked pair loss. -/
def lossStep (i : grid0.Coords) (x0 : Vec F S1024x1 .f32) (x1 : Vec F S1x1024 .f32) (x2 : Vec F S1024x1 .i32) (x3 : Vec F S1x1024 .i32) (acc : Vec F S1x1 .f32) : Vec F S1x1 .f32 :=
  k0_pay1 (k0_pay5 i x2 x3) (k0_pay6 x0 x1) (Scalar.ofBits .f32 0x00000000#32) (k0_pay7 x0 x1) (k0_pay8 x0 x1) acc

/-- One grid point's update of the running count: the contents `acc` plus the sum of the mask over the point's tile. -/
def cntStep (i : grid0.Coords) (x2 : Vec F S1024x1 .i32) (x3 : Vec F S1x1024 .i32) (acc : Vec F S1x1 .f32) : Vec F S1x1 .f32 :=
  k0_pay2 (k0_pay5 i x2 x3) acc

theorem sB0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1024x1 .f32) (x1 : Vec F S1x1024 .f32) (x2 : Vec F S1024x1 .i32) (x3 : Vec F S1x1024 .i32) (xs0 : Vec F S1x1 .f32) (xs1 : Vec F S1x1 .f32) :
    sout0_B_0 c i arg2 harg2 arg3 harg3 arg4 harg4 arg5 harg5 arg6 harg6 arg7 harg7 arg8 harg8 arg9 harg9 hc0 hc1 x0 x1 x2 x3 xs0 xs1 = lossStep i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rfl

theorem sB1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S1024x1 .f32) (x1 : Vec F S1x1024 .f32) (x2 : Vec F S1024x1 .i32) (x3 : Vec F S1x1024 .i32) (xs0 : Vec F S1x1 .f32) (xs1 : Vec F S1x1 .f32) :
    sout0_B_1 c i arg2 harg2 arg3 harg3 arg4 harg4 arg5 harg5 arg6 harg6 arg7 harg7 arg8 harg8 arg9 harg9 hc0 hc1 x0 x1 x2 x3 xs0 xs1 = cntStep i x2 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rfl

theorem sA0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1024x1 .f32) (x1 : Vec F S1x1024 .f32) (x2 : Vec F S1024x1 .i32) (x3 : Vec F S1x1024 .i32) :
    sout0_A_0 c i arg2 harg2 arg3 harg3 arg4 harg4 arg5 harg5 arg6 harg6 arg7 harg7 arg8 harg8 arg9 harg9 hc0 hc1 x0 x1 x2 x3 = lossStep i x0 x1 x2 x3 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rfl

theorem sA1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S1024x1 .f32) (x1 : Vec F S1x1024 .f32) (x2 : Vec F S1024x1 .i32) (x3 : Vec F S1x1024 .i32) :
    sout0_A_1 c i arg2 harg2 arg3 harg3 arg4 harg4 arg5 harg5 arg6 harg6 arg7 harg7 arg8 harg8 arg9 harg9 hc0 hc1 x0 x1 x2 x3 = cntStep i x2 x3 k0_pay4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rfl

theorem sC0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S1x1 .f32) (xs1 : Vec F S1x1 .f32) :
    sout0_C_0 c i arg2 harg2 arg3 harg3 arg4 harg4 arg5 harg5 arg6 harg6 arg7 harg7 arg8 harg8 arg9 harg9 hc0 hc1 x0 x1 x2 x3 xs0 xs1 = lossStep i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rfl

theorem sC1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S1x1 .f32) (xs1 : Vec F S1x1 .f32) :
    sout0_C_1 c i arg2 harg2 arg3 harg3 arg4 harg4 arg5 harg5 arg6 harg6 arg7 harg7 arg8 harg8 arg9 harg9 hc0 hc1 x0 x1 x2 x3 xs0 xs1 = cntStep i x2 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rfl

theorem oC4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S1x1 .f32) (xs1 : Vec F S1x1 .f32) :
    out0_C_4 c i arg2 harg2 arg3 harg3 arg4 harg4 arg5 harg5 arg6 harg6 arg7 harg7 arg8 harg8 arg9 harg9 hc0 hc1 x0 x1 x2 x3 xs0 xs1 = lossStep i x0 x1 x2 x3 xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rw [View.readCov_unit_zero (S := S1x1) _ hz]
  rfl

theorem oC5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S1024x1 .f32) (x1 : Vec F S1x1024 .f32) (x2 : Vec F S1024x1 .i32) (x3 : Vec F S1x1024 .i32) (xs0 : Vec F S1x1 .f32) (xs1 : Vec F S1x1 .f32) :
    out0_C_5 c i arg2 harg2 arg3 harg3 arg4 harg4 arg5 harg5 arg6 harg6 arg7 harg7 arg8 harg8 arg9 harg9 hc0 hc1 x0 x1 x2 x3 xs0 xs1 = cntStep i x2 x3 xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg2.read_unread, harg3.read_unread, harg4.read_unread, harg5.read_unread, harg8.read_unread, harg9.read_unread,
    View.ld_unit_zero (S := S1x1) hz, View.ld_unit_zero (S := S1024x1) hz, View.ld_unit_zero (S := S1x1024) hz]
  rw [View.readCov_unit_zero (S := S1x1) _ hz]
  rfl

end Cert.KernelIdeal.Cases
end
-- ==== Proof.KernelAcc.lean ====
/-
  The kernel's two accumulators point by point, and what its two outputs end holding.

  `accs` is the recurrence: zero words at the first grid point, then each point's update (KernelCases).  The
  generated point-by-point contents of the accumulators satisfy it (induction on the point), the last point copies the
  accumulators to the outputs, and that point's write-back — the only one — covers each one-word output array.
-/
import proofs.«111976_j90950227460178_1_alg».proof.Proof.Gen.KernelIdeal.Frame
import Idealize.ShloMosaic.Lib.Pipeline.Value
import Idealize.ShloMosaic.Lib.Tactic
import proofs.«111976_j90950227460178_1_alg».proof.Proof.KernelCases
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Acc
open Cert.KernelIdeal Cert.KernelIdeal.Gen Cert.KernelIdeal.Cases
variable {F : FTy → Type} [FloatOps F]
variable (m : (ℓ : Loc nD τ sig) → Buf (Elt F) ℓ) (ρ : Dev nD → PrngReg)

/-- The two accumulators after grid point `n`: started from the zero words at point 0, then updated point by point. -/
def accs (c : Dev nD) : (n : ℕ) → n < cfg0.N → Vec F S1x1 .f32 × Vec F S1x1 .f32
  | 0, h => (lossStep (grid0.coords ⟨0, h⟩) (iblk m c 0 ⟨0, h⟩) (iblk m c 1 ⟨0, h⟩) (iblk m c 2 ⟨0, h⟩) (iblk m c 3 ⟨0, h⟩) k0_pay3,
             cntStep (grid0.coords ⟨0, h⟩) (iblk m c 2 ⟨0, h⟩) (iblk m c 3 ⟨0, h⟩) k0_pay4)
  | n + 1, h => (lossStep (grid0.coords ⟨n + 1, h⟩) (iblk m c 0 ⟨n + 1, h⟩) (iblk m c 1 ⟨n + 1, h⟩) (iblk m c 2 ⟨n + 1, h⟩) (iblk m c 3 ⟨n + 1, h⟩)
                    (accs c n (Nat.lt_of_succ_lt h)).1,
                 cntStep (grid0.coords ⟨n + 1, h⟩) (iblk m c 2 ⟨n + 1, h⟩) (iblk m c 3 ⟨n + 1, h⟩) (accs c n (Nat.lt_of_succ_lt h)).2)

/-- What the generated point-by-point contents hold in the two accumulators is `accs`; at the last point the two
    outputs hold the same. By induction on the point. -/
theorem outsAt_eq (c : Dev nD) : ∀ (n : ℕ) (h : n < cfg0.N),
    (outsAt0 m c n h).2.2.1 = (accs m c n h).1 ∧ (outsAt0 m c n h).2.2.2 = (accs m c n h).2
      ∧ (n = 63 → (outsAt0 m c n h).1 = (accs m c n h).1 ∧ (outsAt0 m c n h).2.1 = (accs m c n h).2)
  | 0, h => by
    rw [outsAt0_A m c ⟨0, h⟩ rfl (by show ¬(0 % 64 = 63); decide)]
    dsimp only
    refine ⟨sA0 .., sA1 .., fun h63 => absurd h63 (by decide)⟩
  | n + 1, h => by
    have hN : cfg0.N = 64 := N_0
    have ih := outsAt_eq c n (Nat.lt_of_succ_lt h)
    have h0 : ¬(⟨n + 1, h⟩ : Fin cfg0.N).val % 64 = 0 := by dsimp only; omega
    by_cases h63 : (⟨n + 1, h⟩ : Fin cfg0.N).val % 64 = 63
    · rw [outsAt0_C m c ⟨n + 1, h⟩ h0 h63]
      dsimp only
      rw [sC0, sC1, oC4, oC5]
      exact ⟨congrArg _ ih.1, congrArg _ ih.2.1, fun _ => ⟨congrArg _ ih.1, congrArg _ ih.2.1⟩⟩
    · rw [outsAt0_B m c ⟨n + 1, h⟩ h0 h63]
      dsimp only
      rw [sB0, sB1]
      exact ⟨congrArg _ ih.1, congrArg _ ih.2.1, fun e => absurd (show (n + 1) % 64 = 63 by omega) h63⟩

theorem hlast : 63 < cfg0.N := by rw [show cfg0.N = 64 from N_0]; decide
/-- The last grid point, (7, 7). -/
abbrev tLast : Fin cfg0.N := ⟨63, hlast⟩
/-- The total of the masked pair losses: the first accumulator after the last point, as contents of the first output. -/
abbrev resLoss (c : Dev nD) : Buf (Elt F) ((c : Thread nD τ).loc main_v4_0) := (accs m c 63 hlast).1
/-- The number of counted pairs: the second accumulator after the last point, as contents of the second output. -/
abbrev resCnt (c : Dev nD) : Buf (Elt F) ((c : Thread nD τ).loc main_v4_1) := (accs m c 63 hlast).2

/-- The one write-back of output 4, at the last point, writes `resLoss`: the output's one block is its whole one-word array. -/
theorem flushed4_eq (c : Dev nD) (t : Fin cfg0.N) (hf : (cfg0.win 4).flush t = true) :
    (dats m 0 c).flushed 4 t = ((cfg0.win 4).blk t).view.read (Elt F) (resLoss m c) := by
  have hN : cfg0.N = 64 := N_0
  have h63 : t.val = 63 := by have := (flush0_4 t).mp hf; have := t.isLt; omega
  obtain rfl : t = tLast := Fin.ext h63
  show (cfg0.win 4).cut (grid0.coords tLast) ((dats m 0 c).after 4 tLast) = _
  rw [after0_4, ((outsAt_eq m c 63 hlast).2.2 rfl).1]
  have hz' : (fun a => win0_4.index tLast a * main_v4_0.ty.shape.size a) = fun _ => 0 := funext fun a => by fin_cases a <;> decide
  exact (Memref.read_access_unit_zero (Elt F) main_v4_0 hz' (fun a => by rw [congrFun hz' a]; simp) (resLoss m c)).symm

/-- So output 4's array ends holding `resLoss`. -/
theorem final4 (c : Dev nD) : (dats m 0 c).arrAt 4 cfg0.N = resLoss m c :=
  (dats m 0 c).arrAt_eq_of_cover 4 (resLoss m c) (flushed4_eq m c) fun i =>
    ⟨tLast, (flush0_4 tLast).mpr rfl, by
      show i ∈ ((View.whole main_v4_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The one write-back of output 5, at the last point, writes `resCnt`: the output's one block is its whole one-word array. -/
theorem flushed5_eq (c : Dev nD) (t : Fin cfg0.N) (hf : (cfg0.win 5).flush t = true) :
    (dats m 0 c).flushed 5 t = ((cfg0.win 5).blk t).view.read (Elt F) (resCnt m c) := by
  have hN : cfg0.N = 64 := N_0
  have h63 : t.val = 63 := by have := (flush0_5 t).mp hf; have := t.isLt; omega
  obtain rfl : t = tLast := Fin.ext h63
  show (cfg0.win 5).cut (grid0.coords tLast) ((dats m 0 c).after 5 tLast) = _
  rw [after0_5, ((outsAt_eq m c 63 hlast).2.2 rfl).2]
  have hz' : (fun a => win0_5.index tLast a * main_v4_1.ty.shape.size a) = fun _ => 0 := funext fun a => by fin_cases a <;> decide
  exact (Memref.read_access_unit_zero (Elt F) main_v4_1 hz' (fun a => by rw [congrFun hz' a]; simp) (resCnt m c)).symm

/-- So output 5's array ends holding `resCnt`. -/
theorem final5 (c : Dev nD) : (dats m 0 c).arrAt 5 cfg0.N = resCnt m c :=
  (dats m 0 c).arrAt_eq_of_cover 5 (resCnt m c) (flushed5_eq m c) fun i =>
    ⟨tLast, (flush0_5 tLast).mpr rfl, by
      show i ∈ ((View.whole main_v4_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

end Cert.KernelIdeal.Acc
end
-- ==== Proof.KernelRun.lean ====
/-
  The kernel's program run to its end: the two one-word outputs hold the two totals after the last grid point, and the
  three lines after the kernel read each output as a scalar and divide the first by the second.
-/
import proofs.«111976_j90950227460178_1_alg».proof.Proof.Gen.KernelIdeal.Frame
import Idealize.ShloMosaic.Lib.Pipeline.Value
import Idealize.ShloMosaic.Lib.Tactic
import proofs.«111976_j90950227460178_1_alg».proof.Proof.KernelAcc
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Run
open Cert.KernelIdeal Cert.KernelIdeal.Gen Cert.KernelIdeal.Cases Cert.KernelIdeal.Acc
variable {F : FTy → Type} [FloatOps F]
variable (m : (ℓ : Loc nD τ sig) → Buf (Elt F) ℓ) (ρ : Dev nD → PrngReg)

/-- The lines after the kernel: both one-word outputs read as scalars, the first divided by the second. -/
def kerOut (a b : Vec F S1x1 .f32) : FVec F S_ .f32 :=
  Host.divf (shapeCast S_ a shapeCasts_S1x1_S_) (shapeCast S_ b shapeCasts_S1x1_S_)

/-- What the lines after the kernel leave in the result: `kerOut` of the two outputs' final contents. -/
theorem tail_eq (c : Dev nD) :
    Pipeline.afterTail₀ cfgs (dats m) 0 (V0 m) [hostOps1] c main_v7 = kerOut (resLoss m c) (resCnt m c) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.devRef .tc main_v4_0)
        = resLoss m c from (Pipeline.withArrays_arr spec0 winFacts0.arr_inj c _ _ 4).trans (final4 m c),
      show Pipeline.withArrays (cfgs 0).spec c (V0 m c) (fun w => (dats m 0 c).arrAt w (cfgs 0).N) (Proc.devRef .tc main_v4_1)
        = resCnt m c from (Pipeline.withArrays_arr spec0 winFacts0.arr_inj c _ _ 5).trans (final5 m c)]
  rfl

/-- Every weakly fair execution of the kernel's program terminates with its result at `kerOut` of the two totals,
    the arguments unchanged. -/
theorem run : θ_run defs (onTc (τ := τ) (main (F := F))) ⟨m, fun _ => 0, ρ⟩ fun r => ∀ c : Dev nD,
      r.2.mem ((c : Thread nD τ).loc main_v7) = kerOut (resLoss m c) (resCnt m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v7 (Pipeline.mem_restRefs_of main_v7 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Run
end
-- ==== Proof.PairLoss.lean ====
/-
  The pairwise rank loss on the extended reals, one pair at a time.

  For scores a = s i, b = s j the pair loss is softplus(-(a - b)) = max(x, 0) + log1p(exp(-|x|)) at x = -(a - b);
  the pair counts when the two samples are of one group and i < j, compared as 32-bit signed words.  The result is
  the sum of the counted pair losses over all 8192 × 8192 pairs divided by the number of counted pairs.

  Both programs spell softplus with a guard "x - 0 differs from itself", which no extended real does, with zeros
  written as the float word 0, and the reference wraps it in two negations.  None of the identities used
  (x - 0 = x, 0 - x = -x, -(-x) = x, x + 0 = x) needs a finite x: they hold at both infinities as well.
-/
import Idealize.ShloMosaic.PureOps.Ideal
import Idealize.ShloMosaic.PureOps.Ideal.Laws
import Idealize.ShloMosaic.Lib.IdealHost
import Idealize.ShloMosaic.Lib.ValueIdx

noncomputable section

namespace Cert.PairLoss

open Idealize.ShloMosaic

/-- softplus(x) = max(x, 0) + log1p(exp(-|x|)), |x| = max(x, -x). -/
def softplus (x : EReal) : EReal := max x 0 + Ideal.log1p (Ideal.exp (-(max x (-x))))

/-- The pair (i, j) counts: same group word, and i below j as signed words. -/
def maskBit (ga gb i j : BitVec 32) : BitVec 1 := IntOp.andi (IntOp.cmpi .eq ga gb) (IntOp.cmpi .slt i j)

/-- A one-bit word as the extended real 0 or 1. -/
def bitVal (b : BitVec 1) : EReal := ((b.toNat : ℝ) : EReal)

/-- The counted loss of the pair (i, j). -/
def lossTerm (s : Fin 8192 → EReal) (g : Fin 8192 → BitVec 32) (i j : Fin 8192) : EReal :=
  softplus (-(s i - s j)) * bitVal (maskBit (g i) (g j) (BitVec.ofNat 32 i.val) (BitVec.ofNat 32 j.val))

/-- 1 if the pair (i, j) counts, else 0. -/
def cntTerm (g : Fin 8192 → BitVec 32) (i j : Fin 8192) : EReal :=
  bitVal (maskBit (g i) (g j) (BitVec.ofNat 32 i.val) (BitVec.ofNat 32 j.val))

/-- The mean counted pair loss: total over count (the division's conventions at a zero count are the programs' own). -/
def result (s : Fin 8192 → EReal) (g : Fin 8192 → BitVec 32) : EReal :=
  Ideal.div (Ideal.ofBits .f32 0x00000000#32 + ∑ i, ∑ j, lossTerm s g i j)
    (Ideal.ofBits .f32 0x00000000#32 + ∑ i, ∑ j, cntTerm g i j)

/-- No extended real differs from itself: both spellings of the guard are the zero bit. -/
theorem cmp_ne_self (x : EReal) : Ideal.cmp .une x x = 0#1 ∧ Ideal.cmp .one x x = 0#1 := by
  constructor <;> simp [Ideal.cmp]

/-- The reference's softplus, with its guard and its zeros, is `softplus`. -/
theorem ref_softplus (x : EReal) :
    Scalar.select (Ideal.cmp .une (x - Ideal.ofBits .f32 0x00000000#32) (x - Ideal.ofBits .f32 0x00000000#32))
        (x + Ideal.ofBits .f32 0x00000000#32)
        (max x (Ideal.ofBits .f32 0x00000000#32)
          + Ideal.log1p (Ideal.exp (-(max (x - Ideal.ofBits .f32 0x00000000#32) (-(x - Ideal.ofBits .f32 0x00000000#32))))))
      = softplus x := by
  rw [(cmp_ne_self _).1, ValueIdx.select_zero, Ideal.ofBits_zero_f32, sub_zero]
  rfl

/-- The kernel's softplus of `0 - d`, with its guard, its zeros and `0 - |·|` for the negation, is `softplus (-d)`. -/
theorem ker_softplus (d : EReal) :
    Scalar.select
        (Ideal.cmp .one (Ideal.ofBits .f32 0x00000000#32 - d - Ideal.ofBits .f32 0x00000000#32)
          (Ideal.ofBits .f32 0x00000000#32 - d - Ideal.ofBits .f32 0x00000000#32))
        (Ideal.ofBits .f32 0x00000000#32 - d + Ideal.ofBits .f32 0x00000000#32)
        (max (Ideal.ofBits .f32 0x00000000#32 - d) (Ideal.ofBits .f32 0x00000000#32)
          + Ideal.log1p (Ideal.exp (Ideal.ofBits .f32 0x00000000#32
              - max (Ideal.ofBits .f32 0x00000000#32 - d - Ideal.ofBits .f32 0x00000000#32)
                  (-(Ideal.ofBits .f32 0x00000000#32 - d - Ideal.ofBits .f32 0x00000000#32)))))
      = softplus (-d) := by
  rw [(cmp_ne_self _).2, ValueIdx.select_zero, Ideal.ofBits_zero_f32, zero_sub, sub_zero, zero_sub]
  rfl

/-- Selecting the float one or the float zero by a bit is the bit's value. -/
theorem select_bit (b : BitVec 1) :
    Scalar.select b (Ideal.ofBits .f32 0x3F800000#32) (Ideal.ofBits .f32 0x00000000#32) = bitVal b := by
  by_cases h : b = 1#1
  · subst h
    rw [ValueIdx.select_one, Ideal.ofBits_one_f32]
    simp [bitVal]
  · have h0 := ValueIdx.eq_zero_of_ne_one h
    subst h0
    rw [ValueIdx.select_zero, Ideal.ofBits_zero_f32]
    simp [bitVal]

end Cert.PairLoss

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelTile.lean ====
/-
  One grid point's two updates read as numbers.

  At the extended reals the kernel's update of its running sum is: the old word plus the sum, over the 1024 × 1024
  pairs (p, q) of the point's tile, of softplus(-(x0 p - x1 q)) times the mask bit of the pair; the update of the
  count is the old word plus the sum of the mask bits.  The tile's total is spelt as a reduction over the two long axes
  of the tile recast with a leading unit axis; the kernel's softplus is the guarded form PairLoss reduces.
-/
import proofs.«111976_j90950227460178_1_alg».proof.Proof.Gen.KernelIdeal.Frame
import Idealize.ShloMosaic.Lib.Pipeline.Value
import Idealize.ShloMosaic.Lib.Tactic
import proofs.«111976_j90950227460178_1_alg».proof.Proof.KernelCases
import proofs.«111976_j90950227460178_1_alg».proof.Proof.PairLoss
import proofs.«111976_j90950227460178_1_alg».proof.Proof.LibKeepdims
import Idealize.ShloMosaic.Lib.ValueIdx
import Idealize.ShloMosaic.Lib.ValueLayout
import Idealize.ShloMosaic.Lib.IdealHost
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.Tile
open Cert.KernelIdeal Cert.KernelIdeal.Gen Cert.KernelIdeal.Cases
open Idealize.ShloMosaic.ValueIdx Cert.PairLoss Cert.LibKeepdims

/-- A word plus the total of a 1024 × 1024 tile, as the kernel spells it (the tile recast with a leading unit axis, summed
    over its two long axes into one entry, that entry extracted and spread over the one-word array), is the word plus
    the double sum over the tile's rows and columns. -/
theorem tileTotal (W : FVec Ideal S1024x1024 .f32) (acc : Vec Ideal S1x1 .f32) (y : S1x1.Idx) :
    addf acc (broadcast S1x1 (extractAt ![0, 0, 0]
        (shapeCast S1x1x1 (multiReduction .add [1, 2] S1 (shapeCast S1x1024x1024 W shapeCasts_S1024x1024_S1x1024x1024)
          0x00000000#32 reduces_S1x1024x1024_S1 (.inl rfl) rfl) shapeCasts_S1_S1x1x1) inpos_S1x1x1_p0_0_0)) y
      = acc y + ∑ p : Fin 1024, ∑ q : Fin 1024, W (ix2 p q) := by
  show acc y + multiReduction .add [1, 2] S1 (shapeCast S1x1024x1024 W shapeCasts_S1024x1024_S1x1024x1024)
      0x00000000#32 reduces_S1x1024x1024_S1 (.inl rfl) rfl (Shape.reshapeEquiv shapeCasts_S1_S1x1x1 _) = _
  refine congrArg (acc y + ·) ?_
  refine (Ideal.multiReduction_add_total (shapeCast S1x1024x1024 W shapeCasts_S1024x1024_S1x1024x1024) 0x00000000#32
    reduces_S1x1024x1024_S1 (fun b => by fin_cases b; rfl) (.inl rfl) rfl _).trans ?_
  exact (Equiv.sum_comp (Shape.reshapeEquiv shapeCasts_S1024x1024_S1x1024x1024) W).trans (sum_idx2 W)

/-- The update of the running sum over arbitrary tile arrays: the old word plus the sum over the tile of
    (guarded softplus) × mask, entry by entry. -/
theorem pay1_apply (v33 v35 : FVec Ideal S1024x1024 .f32) (cst : Ideal .f32) (v37 v39 : FVec Ideal S1024x1024 .f32)
    (acc : Vec Ideal S1x1 .f32) (y : S1x1.Idx) :
    k0_pay1 (F := Ideal) v33 v35 cst v37 v39 acc y
      = acc y + ∑ p : Fin 1024, ∑ q : Fin 1024,
          Scalar.select (Ideal.cmp .one (v39 (ix2 p q)) (v39 (ix2 p q))) (v35 (ix2 p q) + cst)
              (v37 (ix2 p q) + Ideal.log1p (Ideal.exp (Ideal.ofBits .f32 0x00000000#32 - max (v39 (ix2 p q)) (-(v39 (ix2 p q))))))
            * v33 (ix2 p q) := by
  unfold k0_pay1
  dsimp only
  rw [shapeCast_self]
  exact tileTotal _ acc y

/-- The update of the running count over an arbitrary mask array: the old word plus the sum of the mask over the tile. -/
theorem pay2_apply (v33 : FVec Ideal S1024x1024 .f32) (acc : Vec Ideal S1x1 .f32) (y : S1x1.Idx) :
    k0_pay2 (F := Ideal) v33 acc y = acc y + ∑ p : Fin 1024, ∑ q : Fin 1024, v33 (ix2 p q) := by
  unfold k0_pay2
  dsimp only
  rw [shapeCast_self]
  exact tileTotal _ acc y

/-- The negated score difference of the pair (p, q) of a tile. -/
theorem pay6_apply (x0 : Vec Ideal S1024x1 .f32) (x1 : Vec Ideal S1x1024 .f32) (p q : Fin 1024) :
    k0_pay6 (F := Ideal) x0 x1 (ix2 p q)
      = Ideal.ofBits .f32 0x00000000#32 - (x0 (ix2 p (0 : Fin 1)) - x1 (ix2 (0 : Fin 1) q)) := by
  simp only [k0_pay6, shapeCast_self, subf, broadcast, broadcastTo_a1_ab_apply, broadcastTo_1b_ab_apply, Ideal.subf_def]
  rfl

theorem pay7_apply (x0 : Vec Ideal S1024x1 .f32) (x1 : Vec Ideal S1x1024 .f32) (j : S1024x1024.Idx) :
    k0_pay7 (F := Ideal) x0 x1 j = max (k0_pay6 (F := Ideal) x0 x1 j) (Ideal.ofBits .f32 0x00000000#32) := rfl

theorem pay8_apply (x0 : Vec Ideal S1024x1 .f32) (x1 : Vec Ideal S1x1024 .f32) (j : S1024x1024.Idx) :
    k0_pay8 (F := Ideal) x0 x1 j = k0_pay6 (F := Ideal) x0 x1 j - Ideal.ofBits .f32 0x00000000#32 := rfl

/-- The mask of the pair (p, q) of the tile at grid point `i`. -/
theorem pay5_apply (i : grid0.Coords) (x2 : Vec Ideal S1024x1 .i32) (x3 : Vec Ideal S1x1024 .i32) (p q : Fin 1024) :
    k0_pay5 (F := Ideal) i x2 x3 (ix2 p q)
      = bitVal (maskBit (x2 (ix2 p (0 : Fin 1))) (x3 (ix2 (0 : Fin 1) q))
          (IntOp.addi (BitVec.ofNat 32 p.val) (Scalar.muli (BitVec.ofNat 32 (i 0).val) 1024#32))
          (IntOp.addi (BitVec.ofNat 32 q.val) (Scalar.muli (BitVec.ofNat 32 (i 1).val) 1024#32))) := by
  simp only [k0_pay5, shapeCast_self, Idealize.ShloMosaic.select, andi, cmpi, addi, broadcast, broadcastTo_a1_ab_apply,
    broadcastTo_1b_ab_apply]
  rw [iota_single_apply, iota_single_apply]
  exact select_bit _

/-- One point's update of the running sum, read as a number: what was there plus the sum over the point's tile of the
    counted pair losses. -/
theorem lossStep_apply (i : grid0.Coords) (x0 : Vec Ideal S1024x1 .f32) (x1 : Vec Ideal S1x1024 .f32)
    (x2 : Vec Ideal S1024x1 .i32) (x3 : Vec Ideal S1x1024 .i32) (acc : Vec Ideal S1x1 .f32) (y : S1x1.Idx) :
    lossStep (F := Ideal) i x0 x1 x2 x3 acc y
      = acc y + ∑ p : Fin 1024, ∑ q : Fin 1024,
          PairLoss.softplus (-(x0 (ix2 p (0 : Fin 1)) - x1 (ix2 (0 : Fin 1) q)))
            * bitVal (maskBit (x2 (ix2 p (0 : Fin 1))) (x3 (ix2 (0 : Fin 1) q))
                (IntOp.addi (BitVec.ofNat 32 p.val) (Scalar.muli (BitVec.ofNat 32 (i 0).val) 1024#32))
                (IntOp.addi (BitVec.ofNat 32 q.val) (Scalar.muli (BitVec.ofNat 32 (i 1).val) 1024#32))) := by
  unfold lossStep
  rw [pay1_apply]
  refine congrArg (acc y + ·) (Finset.sum_congr rfl fun p _ => Finset.sum_congr rfl fun q _ => ?_)
  rw [pay7_apply, pay8_apply, pay6_apply, pay5_apply]
  exact congrArg (· * _) (ker_softplus _)

/-- One point's update of the running count, read as a number: what was there plus the number of counted pairs of the tile. -/
theorem cntStep_apply (i : grid0.Coords) (x2 : Vec Ideal S1024x1 .i32) (x3 : Vec Ideal S1x1024 .i32)
    (acc : Vec Ideal S1x1 .f32) (y : S1x1.Idx) :
    cntStep (F := Ideal) i x2 x3 acc y
      = acc y + ∑ p : Fin 1024, ∑ q : Fin 1024,
          bitVal (maskBit (x2 (ix2 p (0 : Fin 1))) (x3 (ix2 (0 : Fin 1) q))
                (IntOp.addi (BitVec.ofNat 32 p.val) (Scalar.muli (BitVec.ofNat 32 (i 0).val) 1024#32))
                (IntOp.addi (BitVec.ofNat 32 q.val) (Scalar.muli (BitVec.ofNat 32 (i 1).val) 1024#32))) := by
  unfold cntStep
  rw [pay2_apply]
  refine congrArg (acc y + ·) (Finset.sum_congr rfl fun p _ => Finset.sum_congr rfl fun q _ => ?_)
  rw [pay5_apply]

/-- The zero words the accumulators start from. -/
theorem pay3_apply (y : S1x1.Idx) : k0_pay3 (F := Ideal) y = Ideal.ofBits .f32 0x00000000#32 := rfl
theorem pay4_apply (y : S1x1.Idx) : k0_pay4 (F := Ideal) y = Ideal.ofBits .f32 0x00000000#32 := rfl

end Cert.KernelIdeal.Tile
end
-- ==== Proof.KernelBlocks.lean ====
/-
  What the kernel's four input windows hold at a grid point.

  Grid point t of the 8 × 8 grid is tile (t / 8, t % 8).  The scores and the group words each reach the kernel twice:
  recast as an [8192, 1] column, cut into blocks of 1024 rows, and recast as a [1, 8192] row, cut into blocks of
  1024 columns.  So at point t entry p of a column block is entry 1024·(t / 8) + p of the argument, and entry p of a
  row block is entry 1024·(t % 8) + p.
-/
import proofs.«111976_j90950227460178_1_alg».proof.Proof.Gen.KernelIdeal.Frame
import Idealize.ShloMosaic.Lib.Pipeline.Value
import Idealize.ShloMosaic.Lib.Tactic
import proofs.«111976_j90950227460178_1_alg».proof.Proof.LibKeepdims
import Idealize.ShloMosaic.Lib.ValueIdx
import Idealize.ShloMosaic.Lib.ValueLayout
import Idealize.ShloMosaic.Lib.StableHlo.Run
set_option maxRecDepth 16384

noncomputable section

open Idealize.ShloMosaic Idealize.ShloMosaic.TcCoe Idealize.SL.Sem
open Idealize.ShloMosaic.Pipeline (Dat)

namespace Cert.KernelIdeal.Blocks
open Cert.KernelIdeal Cert.KernelIdeal.Gen
open Idealize.ShloMosaic.ValueIdx Cert.LibKeepdims
variable {F : FTy → Type} [FloatOps F]
variable (m : (ℓ : Loc nD τ sig) → Buf (Elt F) ℓ)

/-- Grid point `t` is tile (t / 8, t % 8): the column windows sit at block row t / 8, the row windows at block column t % 8. -/
theorem idx_facts : ∀ t : Fin cfg0.N,
    win0_0.index t 0 = t.val / 8 ∧ win0_0.index t 1 = 0 ∧ win0_1.index t 0 = 0 ∧ win0_1.index t 1 = t.val % 8
    ∧ win0_2.index t 0 = t.val / 8 ∧ win0_2.index t 1 = 0 ∧ win0_3.index t 0 = 0 ∧ win0_3.index t 1 = t.val % 8
    ∧ (grid0.coords t 0).val = t.val / 8 ∧ (grid0.coords t 1).val = t.val % 8 :=
  (by decide +kernel : ∀ t : Fin grid0.N, _)

/-- Column window 0 as the kernel's region finds its array: the argument recast [8192] → [8192, 1]. -/
theorem V_v0 (c : Dev nD) : (V m c main_v0 : S8192x1.Idx → Elt F .f32)
    = shapeCast S8192x1 (m ((c : Thread nD τ).loc main_arg0)) shapeCasts_S8192_S8192x1 := by
  show StableHlo.after hostOps0 (fun b => m (c, b)) (Proc.devRef .tc main_v0) = _
  after_results
  rfl

/-- Entry `p` of window 0's block at grid point `t` is entry 1024·(t / 8) + p of the argument. -/
theorem blk0 (c : Dev nD) (t : Fin cfg0.N) (p : Fin 1024) (hb : 1024 * (t.val / 8) + p.val < 8192) :
    (iblk m c 0 t : Vec F S1024x1 .f32) (ix2 p (0 : Fin 1))
      = m ((c : Thread nD τ).loc main_arg0) (ix1 ⟨1024 * (t.val / 8) + p.val, hb⟩) := by
  unfold iblk
  rw [View.read_apply]
  show V m c main_v0 (((cfg0.win 0).blk t).view.emb (ix2 p (0 : Fin 1))) = _
  have hidx : ((cfg0.win 0).blk t).view.emb (ix2 p (0 : Fin 1))
      = (ix2 (⟨1024 * (t.val / 8) + p.val, hb⟩ : Fin 8192) (0 : Fin 1) : S8192x1.Idx) :=
    funext fun a => Fin.ext (by
      match a with
      | ⟨0, _⟩ => show win0_0.index t 0 * 1024 + 1 * p.val = 1024 * (t.val / 8) + p.val; rw [(idx_facts t).1]; omega
      | ⟨1, _⟩ => show win0_0.index t 1 * 1 + 1 * 0 = 0; rw [(idx_facts t).2.1])
  exact (congrArg (V m c main_v0) hidx).trans ((congrFun (V_v0 m c) _).trans (shapeCast_a_a1_apply _ _ _ _))

/-- Row window 1 as the kernel's region finds its array: the argument recast [8192] → [1, 8192]. -/
theorem V_v1 (c : Dev nD) : (V m c main_v1 : S1x8192.Idx → Elt F .f32)
    = shapeCast S1x8192 (m ((c : Thread nD τ).loc main_arg0)) shapeCasts_S8192_S1x8192 := by
  show StableHlo.after hostOps0 (fun b => m (c, b)) (Proc.devRef .tc main_v1) = _
  after_results
  rfl

/-- Entry `p` of window 1's block at grid point `t` is entry 1024·(t % 8) + p of the argument. -/
theorem blk1 (c : Dev nD) (t : Fin cfg0.N) (p : Fin 1024) (hb : 1024 * (t.val % 8) + p.val < 8192) :
    (iblk m c 1 t : Vec F S1x1024 .f32) (ix2 (0 : Fin 1) p)
      = m ((c : Thread nD τ).loc main_arg0) (ix1 ⟨1024 * (t.val % 8) + p.val, hb⟩) := by
  unfold iblk
  rw [View.read_apply]
  show V m c main_v1 (((cfg0.win 1).blk t).view.emb (ix2 (0 : Fin 1) p)) = _
  have hidx : ((cfg0.win 1).blk t).view.emb (ix2 (0 : Fin 1) p)
      = (ix2 (0 : Fin 1) (⟨1024 * (t.val % 8) + p.val, hb⟩ : Fin 8192) : S1x8192.Idx) :=
    funext fun a => Fin.ext (by
      match a with
      | ⟨0, _⟩ => show win0_1.index t 0 * 1 + 1 * 0 = 0; rw [(idx_facts t).2.2.1]
      | ⟨1, _⟩ => show win0_1.index t 1 * 1024 + 1 * p.val = 1024 * (t.val % 8) + p.val; rw [(idx_facts t).2.2.2.1]; omega)
  exact (congrArg (V m c main_v1) hidx).trans ((congrFun (V_v1 m c) _).trans (shapeCast_a_1a_apply _ _ _ _))

/-- Column window 2 as the kernel's region finds its array: the argument recast [8192] → [8192, 1]. -/
theorem V_v2 (c : Dev nD) : (V m c main_v2 : S8192x1.Idx → Elt F .i32)
    = shapeCast S8192x1 (m ((c : Thread nD τ).loc main_arg1)) shapeCasts_S8192_S8192x1 := by
  show StableHlo.after hostOps0 (fun b => m (c, b)) (Proc.devRef .tc main_v2) = _
  after_results
  rfl

/-- Entry `p` of window 2's block at grid point `t` is entry 1024·(t / 8) + p of the argument. -/
theorem blk2 (c : Dev nD) (t : Fin cfg0.N) (p : Fin 1024) (hb : 1024 * (t.val / 8) + p.val < 8192) :
    (iblk m c 2 t : Vec F S1024x1 .i32) (ix2 p (0 : Fin 1))
      = m ((c : Thread nD τ).loc main_arg1) (ix1 ⟨1024 * (t.val / 8) + p.val, hb⟩) := by
  unfold iblk
  rw [View.read_apply]
  show V m c main_v2 (((cfg0.win 2).blk t).view.emb (ix2 p (0 : Fin 1))) = _
  have hidx : ((cfg0.win 2).blk t).view.emb (ix2 p (0 : Fin 1))
      = (ix2 (⟨1024 * (t.val / 8) + p.val, hb⟩ : Fin 8192) (0 : Fin 1) : S8192x1.Idx) :=
    funext fun a => Fin.ext (by
      match a with
      | ⟨0, _⟩ => show win0_2.index t 0 * 1024 + 1 * p.val = 1024 * (t.val / 8) + p.val; rw [(idx_facts t).2.2.2.2.1]; omega
      | ⟨1, _⟩ => show win0_2.index t 1 * 1 + 1 * 0 = 0; rw [(idx_facts t).2.2.2.2.2.1])
  exact (congrArg (V m c main_v2) hidx).trans ((congrFun (V_v2 m c) _).trans (shapeCast_a_a1_apply _ _ _ _))

/-- Row window 3 as the kernel's region finds its array: the argument recast [8192] → [1, 8192]. -/
theorem V_v3 (c : Dev nD) : (V m c main_v3 : S1x8192.Idx → Elt F .i32)
    = shapeCast S1x8192 (m ((c : Thread nD τ).loc main_arg1)) shapeCasts_S8192_S1x8192 := by
  show StableHlo.after hostOps0 (fun b => m (c, b)) (Proc.devRef .tc main_v3) = _
  after_results
  rfl

/-- Entry `p` of window 3's block at grid point `t` is entry 1024·(t % 8) + p of the argument. -/
theorem blk3 (c : Dev nD) (t : Fin cfg0.N) (p : Fin 1024) (hb : 1024 * (t.val % 8) + p.val < 8192) :
    (iblk m c 3 t : Vec F S1x1024 .i32) (ix2 (0 : Fin 1) p)
      = m ((c : Thread nD τ).loc main_arg1) (ix1 ⟨1024 * (t.val % 8) + p.val, hb⟩) := by
  unfold iblk
  rw [View.read_apply]
  show V m c main_v3 (((cfg0.win 3).blk t).view.emb (ix2 (0 : Fin 1) p)) = _
  have hidx : ((cfg0.win 3).blk t).view.emb (ix2 (0 : Fin 1) p)
      = (ix2 (0 : Fin 1) (⟨1024 * (t.val % 8) + p.val, hb⟩ : Fin 8192) : S1x8192.Idx) :=
    funext fun a => Fin.ext (by
      match a with
      | ⟨0, _⟩ => show win0_3.index t 0 * 1 + 1 * 0 = 0; rw [(idx_facts t).2.2.2.2.2.2.1]
      | ⟨1, _⟩ => show win0_3.index t 1 * 1024 + 1 * p.val = 1024 * (t.val % 8) + p.val; rw [(idx_facts t).2.2.2.2.2.2.2.1]; omega)
  exact (congrArg (V m c main_v3) hidx).trans ((congrFun (V_v3 m c) _).trans (shapeCast_a_1a_apply _ _ _ _))

end Cert.KernelIdeal.Blocks
end
-- ==== Proof.TileSum.lean ====
/-
  A sum over a square of side A·T, cut into A·A square tiles of side T.

  A finite sum over the first A·T naturals is the sum, block by block, of A blocks of T consecutive terms; so a double
  sum over a square of side 8192 is the sum over the 64 tiles (a, b) of side 1024, taken in row-major order of
  the tiles, of each tile's own double sum.  Only the commutative-monoid laws of + are used: nothing has to be finite.
-/
import Mathlib.Algebra.BigOperators.Fin
import Mathlib.Logic.Equiv.Fin.Basic

open scoped BigOperators

namespace Cert.TileSum

variable {M : Type*} [AddCommMonoid M]

/-- A sum over `Fin N`, `N = A · T`, as `A` blocks of `T` consecutive terms: term `T·a + r` is term `r` of block `a`. -/
theorem sum_blocks (A T N : ℕ) (hN : A * T = N) (h : Fin N → M) :
    ∑ i, h i = ∑ a : Fin A, ∑ r : Fin T, h ⟨T * a.val + r.val, by
      have ha := a.isLt
      have hr := r.isLt
      calc T * a.val + r.val < T * a.val + T := by omega
        _ = T * (a.val + 1) := by rw [Nat.mul_succ]
        _ ≤ T * A := Nat.mul_le_mul_left _ ha
        _ = N := by rw [Nat.mul_comm]; exact hN⟩ := by
  subst hN
  rw [← Equiv.sum_comp finProdFinEquiv h, Fintype.sum_prod_type]
  refine Finset.sum_congr rfl fun a _ => Finset.sum_congr rfl fun r _ => congrArg h (Fin.ext ?_)
  show r.val + T * a.val = T * a.val + r.val
  omega

/-- The sum over the square of side 8192 is the sum over its 64 tiles of side 1024 — tile `t` is the one at tile row
    `t / 8` and tile column `t % 8` — of the tile's double sum. -/
theorem sum_square_tiles (f : Fin 8192 → Fin 8192 → M) :
    ∑ t : Fin 64, ∑ r : Fin 1024, ∑ c : Fin 1024,
        f ⟨1024 * (t.val / 8) + r.val, by have := t.isLt; have := r.isLt; omega⟩
          ⟨1024 * (t.val % 8) + c.val, by have := t.isLt; have := c.isLt; omega⟩
      = ∑ i, ∑ j, f i j := by
  rw [sum_blocks 8 8 64 rfl, sum_blocks 8 1024 8192 rfl]
  refine Finset.sum_congr rfl fun a _ => ?_
  conv_lhs => rw [Finset.sum_comm]
  refine Finset.sum_congr rfl fun r _ => ?_
  rw [sum_blocks 8 1024 8192 rfl]
  refine Finset.sum_congr rfl fun b _ => Finset.sum_congr rfl fun c _ => ?_
  have ha := a.isLt
  have hb := b.isLt
  congr 1 <;> exact Fin.ext (by simp only []; omega)

/-- An accumulator started at `z` and increased by one term per step holds, after step `n`, `z` plus the first
    `n + 1` terms. -/
theorem chain_eq (z : M) (T : ℕ → M) (acc : ℕ → M) (h0 : acc 0 = z + T 0) (hs : ∀ n, acc (n + 1) = acc n + T (n + 1)) :
    ∀ n, acc n = z + ∑ k ∈ Finset.range (n + 1), T k
  | 0 => by rw [h0, Finset.sum_range_one]
  | n + 1 => by rw [hs, chain_eq z T acc h0 hs n, Finset.sum_range_succ _ (n + 1), add_assoc]

end Cert.TileSum
-- ==== Proof.KernelValue.lean ====
/-
  The kernel's result is the mean counted pair loss of PairLoss, at every extended-real input.

  At grid point t = (t / 8, t % 8) the update of the running sum adds the total, over the tile's pairs (p, q), of the
  counted loss of the pair (1024·(t / 8) + p, 1024·(t % 8) + q) of samples: the blocks read those entries of the
  arguments, and the row and column numbers the mask compares, p + (t / 8)·1024 and q + (t % 8)·1024 as 32-bit words,
  are the words of those two sample numbers.  So after the last point the accumulator holds zero plus the totals of
  the 64 tiles in order, which is zero plus the double sum over all pairs (TileSum); the count likewise; the lines after
  the kernel divide the one by the other.
-/
import proofs.«111976_j90950227460178_1_alg».proof.Proof.Gen.KernelIdeal.Frame
import Idealize.ShloMosaic.Lib.Pipeline.Value
import Idealize.ShloMosaic.Lib.Tactic
import proofs.«111976_j90950227460178_1_alg».proof.Proof.KernelRun
import proofs.«111976_j90950227460178_1_alg».proof.Proof.KernelTile
import proofs.«111976_j90950227460178_1_alg».proof.Proof.KernelBlocks
import proofs.«111976_j90950227460178_1_alg».proof.Proof.TileSum
import proofs.«111976_j90950227460178_1_alg».proof.Proof.PairLoss
import Idealize.ShloMosaic.Lib.IdealHost
set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.KernelIdeal.Cases Cert.KernelIdeal.Acc Cert.KernelIdeal.Run
open Cert.KernelIdeal.Tile Cert.KernelIdeal.Blocks
open Idealize.ShloMosaic.ValueIdx Cert.PairLoss Cert.TileSum

variable (m : (ℓ : Loc nD τ sig) → Buf (Elt Ideal) ℓ)

/-- The scores, entry by entry. -/
abbrev sOf (c : Dev nD) : Fin 8192 → EReal := fun i => m ((c : Thread nD τ).loc main_arg0) (ix1 i)
/-- The group words, entry by entry. -/
abbrev gOf (c : Dev nD) : Fin 8192 → BitVec 32 := fun i => m ((c : Thread nD τ).loc main_arg1) (ix1 i)

/-- Row p of tile row a, as the kernel numbers it in 32-bit words, is sample 1024·a + p. -/
theorem word_eq (a p : ℕ) :
    IntOp.addi (BitVec.ofNat 32 p) (Scalar.muli (BitVec.ofNat 32 a) 1024#32) = BitVec.ofNat 32 (1024 * a + p) := by
  show BitVec.ofNat 32 p + BitVec.ofNat 32 a * 1024#32 = _
  rw [Nat.add_comm, BitVec.ofNat_add, Nat.mul_comm, BitVec.ofNat_mul]

/-- The total counted loss of tile `t`. -/
def tileLoss (c : Dev nD) (t : ℕ) (ht : t < 64) : EReal :=
  ∑ p : Fin 1024, ∑ q : Fin 1024, lossTerm (sOf m c) (gOf m c)
    ⟨1024 * (t / 8) + p.val, by have := p.isLt; omega⟩ ⟨1024 * (t % 8) + q.val, by have := q.isLt; omega⟩

/-- The number of counted pairs of tile `t`. -/
def tileCnt (c : Dev nD) (t : ℕ) (ht : t < 64) : EReal :=
  ∑ p : Fin 1024, ∑ q : Fin 1024, cntTerm (gOf m c)
    ⟨1024 * (t / 8) + p.val, by have := p.isLt; omega⟩ ⟨1024 * (t % 8) + q.val, by have := q.isLt; omega⟩

theorem step_loss (c : Dev nD) (t : Fin cfg0.N) (ht : t.val < 64) (acc : Vec Ideal S1x1 .f32) (y : S1x1.Idx) :
    lossStep (grid0.coords t) (iblk m c 0 t) (iblk m c 1 t) (iblk m c 2 t) (iblk m c 3 t) acc y
      = acc y + tileLoss m c t.val ht := by
  refine (lossStep_apply (grid0.coords t) (iblk m c 0 t) (iblk m c 1 t) (iblk m c 2 t) (iblk m c 3 t) acc y).trans ?_
  refine congrArg (acc y + ·) (Finset.sum_congr rfl fun p _ => Finset.sum_congr rfl fun q _ => ?_)
  have hp := p.isLt
  have hq := q.isLt
  rw [blk0 m c t p (by omega), blk1 m c t q (by omega), blk2 m c t p (by omega), blk3 m c t q (by omega),
    (idx_facts t).2.2.2.2.2.2.2.2.1, (idx_facts t).2.2.2.2.2.2.2.2.2, word_eq, word_eq]
  rfl

theorem step_cnt (c : Dev nD) (t : Fin cfg0.N) (ht : t.val < 64) (acc : Vec Ideal S1x1 .f32) (y : S1x1.Idx) :
    cntStep (grid0.coords t) (iblk m c 2 t) (iblk m c 3 t) acc y = acc y + tileCnt m c t.val ht := by
  refine (cntStep_apply (grid0.coords t) (iblk m c 2 t) (iblk m c 3 t) acc y).trans ?_
  refine congrArg (acc y + ·) (Finset.sum_congr rfl fun p _ => Finset.sum_congr rfl fun q _ => ?_)
  have hp := p.isLt
  have hq := q.isLt
  rw [blk2 m c t p (by omega), blk3 m c t q (by omega),
    (idx_facts t).2.2.2.2.2.2.2.2.1, (idx_facts t).2.2.2.2.2.2.2.2.2, word_eq, word_eq]
  rfl

/-- After point `n` the accumulators hold zero plus the totals of tiles 0 … n. -/
theorem accs_eq (c : Dev nD) (y : S1x1.Idx) : ∀ (n : ℕ) (h : n < cfg0.N),
    (accs m c n h).1 y = Ideal.ofBits .f32 0x00000000#32
        + ∑ k : Fin (n + 1), tileLoss m c k.val (by have := k.isLt; have : cfg0.N = 64 := N_0; omega)
    ∧ (accs m c n h).2 y = Ideal.ofBits .f32 0x00000000#32
        + ∑ k : Fin (n + 1), tileCnt m c k.val (by have := k.isLt; have : cfg0.N = 64 := N_0; omega)
  | 0, h => by
    constructor
    · show lossStep _ _ _ _ _ k0_pay3 y = _
      refine (step_loss m c ⟨0, h⟩ (by show 0 < 64; omega) (k0_pay3 (F := Ideal)) y).trans ?_
      rw [pay3_apply, Fin.sum_univ_one]
      rfl
    · show cntStep _ _ _ k0_pay4 y = _
      refine (step_cnt m c ⟨0, h⟩ (by show 0 < 64; omega) (k0_pay4 (F := Ideal)) y).trans ?_
      rw [pay4_apply, Fin.sum_univ_one]
      rfl
  | n + 1, h => by
    have hN : cfg0.N = 64 := N_0
    obtain ⟨ih1, ih2⟩ := accs_eq c y n (Nat.lt_of_succ_lt h)
    constructor
    · show lossStep _ _ _ _ _ (accs m c n _).1 y = _
      refine (step_loss m c ⟨n + 1, h⟩ (by show n + 1 < 64; omega) _ y).trans ?_
      rw [ih1, Fin.sum_univ_castSucc (n := n + 1), add_assoc]
      rfl
    · show cntStep _ _ _ (accs m c n _).2 y = _
      refine (step_cnt m c ⟨n + 1, h⟩ (by show n + 1 < 64; omega) _ y).trans ?_
      rw [ih2, Fin.sum_univ_castSucc (n := n + 1), add_assoc]
      rfl

/-- The first output ends at zero plus the total counted loss over all pairs. -/
theorem resLoss_eq (c : Dev nD) (y : S1x1.Idx) :
    resLoss m c y = Ideal.ofBits .f32 0x00000000#32 + ∑ i, ∑ j, lossTerm (sOf m c) (gOf m c) i j := by
  show (accs m c 63 hlast).1 y = _
  rw [(accs_eq m c y 63 hlast).1]
  exact congrArg _ (sum_square_tiles (lossTerm (sOf m c) (gOf m c)))

/-- The second output ends at zero plus the number of counted pairs. -/
theorem resCnt_eq (c : Dev nD) (y : S1x1.Idx) :
    resCnt m c y = Ideal.ofBits .f32 0x00000000#32 + ∑ i, ∑ j, cntTerm (gOf m c) i j := by
  show (accs m c 63 hlast).2 y = _
  rw [(accs_eq m c y 63 hlast).2]
  exact congrArg _ (sum_square_tiles (cntTerm (gOf m c)))

/-- The kernel's result: the mean counted pair loss. -/
theorem kerOut_eq (c : Dev nD) :
    kerOut (resLoss m c) (resCnt m c) = fun _ => PairLoss.result (sOf m c) (gOf m c) := by
  funext j
  show Ideal.div (resLoss m c (Shape.reshapeEquiv shapeCasts_S1x1_S_ j)) (resCnt m c (Shape.reshapeEquiv shapeCasts_S1x1_S_ j)) = _
  rw [resLoss_eq, resCnt_eq]
  rfl

end Cert.KernelIdeal.Value
end
-- ==== Proof.LibTypedRef.lean ====
/-
  A VALUE PASSED THROUGH A TYPED BUFFER REFERENCE AND BACK IS THE VALUE, generic in everything.

  The operations of a module-local function (an outlined  where,  clip,  relu, …) name their buffers with the
  tensor type attached: a typed reference is a buffer together with the equation "this buffer's type is T".
  Writing a value of type T through it transports the value along that equation to the buffer's own type, and
  reading transports it back.  The two transports are inverse to each other whatever the buffer and whatever the
  equation's proof:

  * `ofBuf_toBuf`  — read back what was written through the same typed reference: the value written;
  * `toBuf_ofBuf`  — write back what was read through it: the contents read.

  These cancel every transport on a function's OWN intermediate buffers.  What is then left in a term are the
  transports at the buffers the function shares with its caller (one per operand read, one per result written);
  each of those is the identity by `rfl` when stated at a VARIABLE for the one buffer concerned, because that
  buffer's type in the program's table computes to the stated type.  Removing all of them before two large terms are
  compared matters: met in the middle of a large term a transport is not reduced first, the comparison drifts into
  unfolding the operations around it, and an operation that sums over a long axis is then evaluated.

  Nothing here depends on a program.
-/
import Idealize.ShloMosaic.Lib.StableHlo

noncomputable section

namespace Cert.Lib.TypedRef

open Idealize.ShloMosaic Idealize.ShloMosaic.StableHlo

variable {sig : RefSig} {Val : EltTy → Type} {T : BufTy}

/-- Reading back through a typed reference what was written through it gives the value written. -/
theorem ofBuf_toBuf (x : TRef sig T) (v : T.Contents Val) : x.ofBuf (x.toBuf v) = v := by
  obtain ⟨r, h, a, b⟩ := x
  subst h
  rfl

/-- Writing back through a typed reference what was read through it gives the contents read. -/
theorem toBuf_ofBuf (x : TRef sig T) (v : x.ref.ty.Contents Val) : x.toBuf (x.ofBuf v) = v := by
  obtain ⟨r, h, a, b⟩ := x
  subst h
  rfl

end Cert.Lib.TypedRef

end
-- ==== Proof.RefRun.lean ====
/-
  The reference program's run, read back as one term of its two arguments.

  The reference computes, over all ordered pairs (i, j) of the 8192 samples, the pair loss
  softplus(-(s i - s j)) — written  -(-(softplus (-(s i - s j))))  by the two negations around
  log_sigmoid — times the 0/1 mask "same group and i < j", sums the masked losses and the mask over
  all pairs, and divides the first sum by the second.  The functions log_sigmoid and softplus are
  separate functions of the module, called once each; their operations are listed here at the place
  of the call, over the buffers that call names.  Run in order, the forty-one operations leave in the
  result buffer the term `out` below of the arguments' contents, and leave the arguments unchanged.
-/
import proofs.«111976_j90950227460178_1_alg».proof.Proof.Gen.ReferenceIdeal
import Idealize.ShloMosaic.Lib.StableHlo.Run
import proofs.«111976_j90950227460178_1_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A vector of scores laid along the rows of the pair square: entry (i, j) is `s i`. -/
def colF (s : FVec F S8192 .f32) : FVec F S8192x8192 .f32 :=
  broadcastInDim S8192x8192 ![0, 1] bcast_S8192x1_S8192x8192_0_1 (broadcastInDim S8192x1 ![0] bcast_S8192_S8192x1_0 s)
/-- A vector of scores laid along the columns of the pair square: entry (i, j) is `s j`. -/
def rowF (s : FVec F S8192 .f32) : FVec F S8192x8192 .f32 :=
  broadcastInDim S8192x8192 ![0, 1] bcast_S1x8192_S8192x8192_0_1 (broadcastInDim S1x8192 ![1] bcast_S8192_S1x8192_1 s)
/-- An integer vector along the rows: entry (i, j) is `g i`. -/
def colI (g : IVec S8192 32) : IVec S8192x8192 32 :=
  broadcastInDim S8192x8192 ![0, 1] bcast_S8192x1_S8192x8192_0_1 (broadcastInDim S8192x1 ![0] bcast_S8192_S8192x1_0 g)
/-- An integer vector along the columns: entry (i, j) is `g j`. -/
def rowI (g : IVec S8192 32) : IVec S8192x8192 32 :=
  broadcastInDim S8192x8192 ![0, 1] bcast_S1x8192_S8192x8192_0_1 (broadcastInDim S1x8192 ![1] bcast_S8192_S1x8192_1 g)
/-- The square of zeros softplus compares and adds with. -/
def zeros : FVec F S8192x8192 .f32 := broadcastInDim S8192x8192 ![] bcast_S_S8192x8192 (constant S_ .f32 0x00000000#32)
/-- softplus as the module spells it: where x - 0 differs from itself, x + 0; elsewhere max(x, 0) + log1p(exp(-|x - 0|)). -/
def softplus (x : FVec F S8192x8192 .f32) : FVec F S8192x8192 .f32 :=
  select (cmpf .une (subf x zeros) (subf x zeros)) (addf x zeros)
    (addf (maximumf x zeros) (Host.log1p (Host.exp (Host.negf (Host.absf (subf x zeros))))))
/-- The mask: 1 where the two samples are of one group and the row index is below the column index, else 0. -/
def mask (g : IVec S8192 32) : FVec F S8192x8192 .f32 :=
  uitofp .f32 (andi (cmpi .eq (colI g) (rowI g)) (cmpi .slt (colI (iotaInDim S8192 32 0)) (rowI (iotaInDim S8192 32 0))))
/-- The pair losses: -(-(softplus(-(s i - s j)))). -/
def loss (s : FVec F S8192 .f32) : FVec F S8192x8192 .f32 :=
  Host.negf (Host.negf (softplus (Host.negf (subf (colF s) (rowF s)))))
/-- The reference's result: the sum of the masked losses over the sum of the mask. -/
def out (s : FVec F S8192 .f32) (g : IVec S8192 32) : FVec F S_ .f32 :=
  Host.divf (Host.reduceAdd (mulf (loss s) (mask g)) (constant S_ .f32 0x00000000#32) reducesTo_S8192x8192_S_d0_1 h_S_)
    (Host.reduceAdd (mask (F := F) g) (constant S_ .f32 0x00000000#32) reducesTo_S8192x8192_S_d0_1 h_S_)

/-- @main's operations in order, the two called functions' operations at their call. -/
abbrev ops : List (HloOp τ sig (Elt F)) :=
  [
    unary main_arg0 main_v0 (broadcastInDim S8192x1 ![0] bcast_S8192_S8192x1_0 : (⟨S8192, .f32⟩ : BufTy).Contents (Elt F) → (⟨S8192x1, .f32⟩ : BufTy).Contents (Elt F)),
    unary main_arg0 main_v1 (broadcastInDim S1x8192 ![1] bcast_S8192_S1x8192_1 : (⟨S8192, .f32⟩ : BufTy).Contents (Elt F) → (⟨S1x8192, .f32⟩ : BufTy).Contents (Elt F)),
    unary main_v0 main_v2 (broadcastInDim S8192x8192 ![0, 1] bcast_S8192x1_S8192x8192_0_1 : (⟨S8192x1, .f32⟩ : BufTy).Contents (Elt F) → (⟨S8192x8192, .f32⟩ : BufTy).Contents (Elt F)),
    unary main_v1 main_v3 (broadcastInDim S8192x8192 ![0, 1] bcast_S1x8192_S8192x8192_0_1 : (⟨S1x8192, .f32⟩ : BufTy).Contents (Elt F) → (⟨S8192x8192, .f32⟩ : BufTy).Contents (Elt F)),
    binary main_v2 main_v3 main_v4 (subf : (⟨S8192x8192, .f32⟩ : BufTy).Contents (Elt F) → (⟨S8192x8192, .f32⟩ : BufTy).Contents (Elt F) → (⟨S8192x8192, .f32⟩ : BufTy).Contents (Elt F)),
    unary main_arg1 main_v5 (broadcastInDim S8192x1 ![0] bcast_S8192_S8192x1_0 : (⟨S8192, .i32⟩ : BufTy).Contents (Elt F) → (⟨S8192x1, .i32⟩ : BufTy).Contents (Elt F)),
    unary main_arg1 main_v6 (broadcastInDim S1x8192 ![1] bcast_S8192_S1x8192_1 : (⟨S8192, .i32⟩ : BufTy).Contents (Elt F) → (⟨S1x8192, .i32⟩ : BufTy).Contents (Elt F)),
    unary main_v5 main_v7 (broadcastInDim S8192x8192 ![0, 1] bcast_S8192x1_S8192x8192_0_1 : (⟨S8192x1, .i32⟩ : BufTy).Contents (Elt F) → (⟨S8192x8192, .i32⟩ : BufTy).Contents (Elt F)),
    unary main_v6 main_v8 (broadcastInDim S8192x8192 ![0, 1] bcast_S1x8192_S8192x8192_0_1 : (⟨S1x8192, .i32⟩ : BufTy).Contents (Elt F) → (⟨S8192x8192, .i32⟩ : BufTy).Contents (Elt F)),
    binary main_v7 main_v8 main_v9 (cmpi .eq : (⟨S8192x8192, .i32⟩ : BufTy).Contents (Elt F) → (⟨S8192x8192, .i32⟩ : BufTy).Contents (Elt F) → (⟨S8192x8192, .i1⟩ : BufTy).Contents (Elt F)),
    nullary main_v10 (iotaInDim S8192 32 0),
    unary main_v10 main_v11 (broadcastInDim S8192x1 ![0] bcast_S8192_S8192x1_0 : (⟨S8192, .i32⟩ : BufTy).Contents (Elt F) → (⟨S8192x1, .i32⟩ : BufTy).Contents (Elt F)),
    unary main_v10 main_v12 (broadcastInDim S1x8192 ![1] bcast_S8192_S1x8192_1 : (⟨S8192, .i32⟩ : BufTy).Contents (Elt F) → (⟨S1x8192, .i32⟩ : BufTy).Contents (Elt F)),
    unary main_v11 main_v13 (broadcastInDim S8192x8192 ![0, 1] bcast_S8192x1_S8192x8192_0_1 : (⟨S8192x1, .i32⟩ : BufTy).Contents (Elt F) → (⟨S8192x8192, .i32⟩ : BufTy).Contents (Elt F)),
    unary main_v12 main_v14 (broadcastInDim S8192x8192 ![0, 1] bcast_S1x8192_S8192x8192_0_1 : (⟨S1x8192, .i32⟩ : BufTy).Contents (Elt F) → (⟨S8192x8192, .i32⟩ : BufTy).Contents (Elt F)),
    binary main_v13 main_v14 main_v15 (cmpi .slt : (⟨S8192x8192, .i32⟩ : BufTy).Contents (Elt F) → (⟨S8192x8192, .i32⟩ : BufTy).Contents (Elt F) → (⟨S8192x8192, .i1⟩ : BufTy).Contents (Elt F)),
    binary main_v9 main_v15 main_v16 (andi : (⟨S8192x8192, .i1⟩ : BufTy).Contents (Elt F) → (⟨S8192x8192, .i1⟩ : BufTy).Contents (Elt F) → (⟨S8192x8192, .i1⟩ : BufTy).Contents (Elt F)),
    unary main_v16 main_v17 (uitofp .f32 : (⟨S8192x8192, .i1⟩ : BufTy).Contents (Elt F) → (⟨S8192x8192, .f32⟩ : BufTy).Contents (Elt F)),
    TRef.unary (.of main_v4) main_call0.v0 Host.negf,
    TRef.nullary main_call0.call0.cst (constant S_ .f32 0x00000000#32),
    TRef.unary main_call0.call0.cst main_call0.call0.v0 (broadcastInDim S8192x8192 ![] bcast_S_S8192x8192),
    TRef.binary main_call0.v0 main_call0.call0.v0 main_call0.call0.v1 maximumf,
    TRef.unary main_call0.call0.cst main_call0.call0.v2 (broadcastInDim S8192x8192 ![] bcast_S_S8192x8192),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S8192x8192 ![] bcast_S_S8192x8192),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_v18 main_v19 (Host.negf : (⟨S8192x8192, .f32⟩ : BufTy).Contents (Elt F) → (⟨S8192x8192, .f32⟩ : BufTy).Contents (Elt F)),
    binary main_v19 main_v17 main_v20 (mulf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v20 main_cst main_v21 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_0 (constant S_ .f32 0x00000000#32),
    binary main_v17 main_cst_0 main_v22 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v21 main_v22 main_v23 (Host.divf : (⟨S_, .f32⟩ : BufTy).Contents (Elt F) → (⟨S_, .f32⟩ : BufTy).Contents (Elt F) → (⟨S_, .f32⟩ : BufTy).Contents (Elt F)) ]

set_option maxRecDepth 4096 in
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., unary_bufs_sub .., unary_bufs_sub .., unary_bufs_sub .., binary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub .., nullary_bufs_sub .., binary_bufs_sub .., nullary_bufs_sub .., binary_bufs_sub .., binary_bufs_sub ..⟩

set_option maxRecDepth 8192 in
/-- What the result buffer holds after the operations, from any contents `V`. -/
theorem out_eq (V : Valuation τ sig (Elt F)) :
    after ops V (main_v23 : DevRef τ sig) = out (V (main_arg0 : DevRef τ sig)) (V (main_arg1 : DevRef τ sig)) := by
  after_results_simp
  simp only [Cert.Lib.TypedRef.ofBuf_toBuf]
  simp only [TRef.toBuf, TRef.ofBuf, cast_eq]
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp

/-- Every weakly fair execution of the reference terminates with its result at `out` of the arguments' contents,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result is the mean counted pair loss of PairLoss, at every extended-real input.

  Entry (i, j) of the pair square reads score i along the rows and score j along the columns (two broadcasts each);
  the mask reads the group words the same way and compares the row and column numbers themselves; the reference's
  softplus and its two negations reduce to `softplus (-(s i - s j))`; each of the two sums over the whole square is
  the initial zero plus the double sum over i and j.
-/
import proofs.«111976_j90950227460178_1_alg».proof.Proof.RefRun
import proofs.«111976_j90950227460178_1_alg».proof.Proof.PairLoss
import Idealize.ShloMosaic.Lib.Pipeline.Value
import Idealize.ShloMosaic.Lib.IdealHost

noncomputable section

namespace Cert.ReferenceIdeal.RefValue

open Cert.ReferenceIdeal Cert.ReferenceIdeal.Gen Cert.ReferenceIdeal.RefRun
open Idealize.ShloMosaic Idealize.ShloMosaic.ValueIdx Cert.PairLoss

variable {α : Type}

/-- A vector laid along the rows of the square, read at (a, b): entry a. -/
theorem col_apply (v : S8192.Idx → α) (a b : Fin 8192) :
    broadcastInDim S8192x8192 ![0, 1] bcast_S8192x1_S8192x8192_0_1 (broadcastInDim S8192x1 ![0] bcast_S8192_S8192x1_0 v) (ix2 a b)
      = v (ix1 a) := by
  rw [broadcastInDim_apply _ _ _ (ix2 a b) (ix2 a (0 : Fin 1)) (fun ax => by
        match ax with
        | ⟨0, _⟩ => show a.val = if (8192 : ℕ) = 1 then 0 else a.val; rw [if_neg (by decide)]
        | ⟨1, _⟩ => rfl),
      broadcastInDim_apply _ _ _ (ix2 a (0 : Fin 1)) (ix1 a) (fun ax => by
        match ax with
        | ⟨0, _⟩ => show a.val = if (8192 : ℕ) = 1 then 0 else a.val; rw [if_neg (by decide)])]

/-- A vector laid along the columns of the square, read at (a, b): entry b. -/
theorem row_apply (v : S8192.Idx → α) (a b : Fin 8192) :
    broadcastInDim S8192x8192 ![0, 1] bcast_S1x8192_S8192x8192_0_1 (broadcastInDim S1x8192 ![1] bcast_S8192_S1x8192_1 v) (ix2 a b)
      = v (ix1 b) := by
  rw [broadcastInDim_apply _ _ _ (ix2 a b) (ix2 (0 : Fin 1) b) (fun ax => by
        match ax with
        | ⟨0, _⟩ => rfl
        | ⟨1, _⟩ => show b.val = if (8192 : ℕ) = 1 then 0 else b.val; rw [if_neg (by decide)]),
      broadcastInDim_apply _ _ _ (ix2 (0 : Fin 1) b) (ix1 b) (fun ax => by
        match ax with
        | ⟨0, _⟩ => show b.val = if (8192 : ℕ) = 1 then 0 else b.val; rw [if_neg (by decide)])]

/-- The reference's pair loss at (a, b). -/
theorem loss_apply (s : FVec Ideal S8192 .f32) (a b : Fin 8192) :
    loss s (ix2 a b) = PairLoss.softplus (-(s (ix1 a) - s (ix1 b))) := by
  simp only [loss, RefRun.softplus, zeros, colF, rowF, Host.negf, Host.absf, Host.exp, Host.log1p,
    Idealize.ShloMosaic.select, cmpf, subf, addf, maximumf, col_apply, row_apply, broadcastInDim_scalar_apply,
    constant_apply, Ideal.hostNegf_def, Ideal.negf_def, Ideal.hostAbsf_def, Ideal.absf_def, Ideal.hostUnary_exp_def,
    Ideal.hostUnary_log1p_def, Ideal.subf_def, Ideal.addf_def, Ideal.maximumf_def, Ideal.cmpf_def]
  rw [col_apply, row_apply, broadcastInDim_scalar_apply, constant_apply, ref_softplus, neg_neg]

/-- The reference's mask at (a, b). -/
theorem mask_apply (g : IVec S8192 32) (a b : Fin 8192) :
    mask (F := Ideal) g (ix2 a b)
      = bitVal (maskBit (g (ix1 a)) (g (ix1 b)) (BitVec.ofNat 32 a.val) (BitVec.ofNat 32 b.val)) := by
  simp only [mask, uitofp, andi, cmpi, colI, rowI]
  rw [col_apply, row_apply, col_apply, row_apply]
  rfl

/-- The reference's result at its one index: the mean counted pair loss of the arguments read entry by entry. -/
theorem out_eq (s : FVec Ideal S8192 .f32) (g : IVec S8192 32) :
    out (F := Ideal) s g = fun _ => PairLoss.result (fun i => s (ix1 i)) (fun i => g (ix1 i)) := by
  funext j
  change Host.divf (Host.reduceAdd _ _ _ _) (Host.reduceAdd _ _ _ _) j = _
  rw [hostDivf_apply, hostReduceAdd_apply, hostReduceAdd_apply,
    Ideal.hostReduceAdd_total _ (fun b => b.elim0), Ideal.hostReduceAdd_total _ (fun b => b.elim0), sum_idx2, sum_idx2]
  unfold PairLoss.result
  refine congrArg₂ Ideal.div ?_ ?_
  · refine congrArg _ (Finset.sum_congr rfl fun a _ => Finset.sum_congr rfl fun b _ => ?_)
    rw [mulf_apply, loss_apply, mask_apply]
    rfl
  · refine congrArg _ (Finset.sum_congr rfl fun a _ => Finset.sum_congr rfl fun b _ => ?_)
    rw [mask_apply]
    rfl

end Cert.ReferenceIdeal.RefValue

end
-- ==== Proof.lean ====
/-
  Pairwise rank loss: a kernel that walks the 8192 × 8192 pair square in 64 tiles of 1024 × 1024, keeping a running sum
  of the counted pair losses and a running count in two one-word accumulators, against the reference that forms the
  whole square at once.

  Over the extended reals both results are the total counted pair loss divided by the number of counted pairs
  (PairLoss.result).  The reference's side is its own run read entry by entry (RefRun, RefValue).  The kernel's side is
  the recurrence of its two accumulators over the grid points (KernelCases, KernelAcc), each point's update read as
  the old word plus the tile's total (KernelTile) of the pairs the point's blocks hold (KernelBlocks), so that the last
  point leaves zero plus the 64 tile totals, which is zero plus the double sum over the square (TileSum, KernelValue);
  the lines after the kernel divide the one output by the other (KernelRun).  Regrouping the sum by tiles uses only
  that + is commutative and associative, and softplus is the same function of the same argument on both sides, so no
  entry has to be finite: the precondition is not opened.  The idealisation rewrote nothing.
-/
import proofs.«111976_j90950227460178_1_alg».proof.Defs
import proofs.«111976_j90950227460178_1_alg».proof.Proof.Gen.Kernel
import proofs.«111976_j90950227460178_1_alg».proof.Proof.Gen.Kernel.Frame
import proofs.«111976_j90950227460178_1_alg».proof.Proof.Gen.KernelIdeal
import proofs.«111976_j90950227460178_1_alg».proof.Proof.Gen.KernelIdeal.Frame
import proofs.«111976_j90950227460178_1_alg».proof.Proof.Gen.ReferenceIdeal
import proofs.«111976_j90950227460178_1_alg».proof.Proof.Gen.Pre_finite_inputs
import proofs.«111976_j90950227460178_1_alg».proof.Proof.KernelValue
import proofs.«111976_j90950227460178_1_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the two arguments both programs end at the mean counted pair loss of those arguments. -/
theorem algebraic : Cert.algebraic_KernelIdeal_ReferenceIdeal := by
  intro m ρ m' ρ' _ hagree
  refine ⟨fun c => Cert.KernelIdeal.Run.kerOut (Cert.KernelIdeal.Acc.resLoss m c) (Cert.KernelIdeal.Acc.resCnt m c),
    Cert.KernelIdeal.Run.run (F := Ideal) m ρ, ?_⟩
  refine (θ_run Cert.ReferenceIdeal.defs _ _).mono (fun _ h c => ⟨(h c).1.trans ?_, (h c).2⟩)
    (Cert.ReferenceIdeal.RefRun.run (F := Ideal) m' ρ')
  show Cert.ReferenceIdeal.RefRun.out _ _
    = Cert.KernelIdeal.Run.kerOut (Cert.KernelIdeal.Acc.resLoss m c) (Cert.KernelIdeal.Acc.resCnt m c)
  rw [Cert.ReferenceIdeal.RefValue.out_eq, Cert.KernelIdeal.Value.kerOut_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
